-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S256x128 : Shape := ⟨2, ![256, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x128 : S_.BroadcastsInDim S256x128 (![] : Fin 0 → Fin S256x128.rank)
  reducesTo_S256x128_S_d0_1 : S256x128.ReducesTo [0, 1] S_

variable [Facts]

def fn {F : FTy → Type} [FloatOps F] (main_arg0 : FVec F S10000x128 .f32) (main_arg1 : FVec F S10000x10000 .f32) (main_arg2 : FVec F S256x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S256x128 : Shape := ⟨2, ![256, 128]⟩
abbrev S400x10000 : Shape := ⟨2, ![400, 10000]⟩
abbrev S400x128 : Shape := ⟨2, ![400, 128]⟩
abbrev S400 : Shape := ⟨1, ![400]⟩
abbrev S400x1 : Shape := ⟨2, ![400, 1]⟩
abbrev S128x128 : Shape := ⟨2, ![128, 128]⟩

abbrev nBuf : Space → Nat
  | .hbm => 4
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S256x128, .f32⟩
  | .hbm, ⟨3, _⟩ => ⟨S10000x128, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S400x128, .f32⟩
  | .local _ .vmem, ⟨4, _⟩ => ⟨S400x128, .f32⟩
  | .local _ .vmem, ⟨5, _⟩ => ⟨S256x128, .f32⟩
  | .local _ .vmem, ⟨6, _⟩ => ⟨S400x128, .f32⟩
  | .local _ .vmem, ⟨7, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S400x10000_S400x10000_0_0 : ∀ a, (![0, 0] : Fin 2 → Nat) a + S400x10000.size a ≤ S400x10000.size a
  h_S400x10000 : 0 < S400x10000.numel
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  reduces_S400x10000_S400 : S400x10000.Reduces [1] S400
  shapeCasts_S400_S400x1 : S400.ShapeCasts S400x1
  broadcasts_S400x1_S400x128 : S400x1.Broadcasts S400x128
  inb_S256x128_S256x128_0_0 : ∀ a, (![0, 0] : Fin 2 → Nat) a + S256x128.size a ≤ S256x128.size a
  h_S256x128 : 0 < S256x128.numel
  inb_S400x128_S400x128_0_0 : ∀ a, (![0, 0] : Fin 2 → Nat) a + S400x128.size a ≤ S400x128.size a
  h_S400x128 : 0 < S400x128.numel
  slices_S256x128_o0_0_S128x128 : S256x128.Slices ![0, 0] S128x128
  slices_S256x128_o128_0_S128x128 : S256x128.Slices ![128, 0] S128x128
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x128.size a ≤ S10000x128.size a
  hwx0_2 : ∀ i : grid0.Coords, EltTy.bits .f32 = 32 ∨ (Rect.block (s := S10000x128) S400x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S400x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S256x128 : Shape := ⟨2, ![256, 128]⟩
abbrev S_ : Shape := ⟨0, ![]⟩
abbrev S10000 : Shape := ⟨1, ![10000]⟩
abbrev S10000x1 : Shape := ⟨2, ![10000, 1]⟩
abbrev S10000x256 : Shape := ⟨2, ![10000, 256]⟩

abbrev nBuf : Space → Nat
  | .hbm => 15
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S256x128, .f32⟩
  | .hbm, ⟨3, _⟩ => ⟨S_, .f32⟩
  | .hbm, ⟨4, _⟩ => ⟨S10000, .f32⟩
  | .hbm, ⟨5, _⟩ => ⟨S10000x1, .f32⟩
  | .hbm, ⟨6, _⟩ => ⟨S10000x128, .f32⟩
  | .hbm, ⟨7, _⟩ => ⟨S_, .f32⟩
  | .hbm, ⟨8, _⟩ => ⟨S_, .f32⟩
  | .hbm, ⟨9, _⟩ => ⟨S10000x1, .f32⟩
  | .hbm, ⟨10, _⟩ => ⟨S10000x1, .f32⟩
  | .hbm, ⟨11, _⟩ => ⟨S10000x128, .f32⟩
  | .hbm, ⟨12, _⟩ => ⟨S10000x128, .f32⟩
  | .hbm, ⟨13, _⟩ => ⟨S10000x256, .f32⟩
  | .hbm, ⟨14, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩

abbrev nD : Nat := 1
abbrev τ : Topo := Topo.v7x

variable {F : FTy → Type} [FloatOps F]

class Facts₀ : Prop where
  reducesTo_S10000x10000_S10000_d1 : S10000x10000.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  concatenates_S10000x128_S10000x128_S10000x256_d1 : Shape.Concatenates [S10000x128, S10000x128] S10000x256 1
  dot_S10000x10000_S10000x128_S10000x128_1_0_0_1_n_n_wf : DotDims.WF S10000x10000 S10000x128 S10000x128 [1] [0] [0] [1] [] []
  dot_S10000x256_S256x128_S10000x128_1_0_0_1_n_n_wf : DotDims.WF S10000x256 S256x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

class Facts : Prop extends Facts₀ where

variable [Facts]
-- ==== Proof.LibSharedFrame.lean ====
/-
  The frame run of ONE kernel region whose input windows may SHARE AN ARRAY (one array handed to the kernel through
  several input windows), for a body that uses nothing of its own: no semaphore, no transfer, not the generator
  register; @main is the region and whatever host lines come before it.

  The library's frame run deals every window's array to its window at the full share, so it asks that the arrays be
  pairwise distinct. When two input windows read one array its full share has to be split between them; how is the
  certificate's to say (`hsplit`: the DISTINCT buffers behind the arrays, each whole at the full share at the
  region-entry contents, make the proof data's arrays at entry, each window's at its own share). Everything else is as
  in the library's frame run: the region invariant is the scoped buffers that are no staging buffer, at some contents
  each, the same at every point; the buffers that are no window's array bypass the region and are read back at the end.
  The conclusion is the library's `FramePost`: every window's array ends at what the library computes from the proof
  data, every bypassing buffer as the region found it.
-/
import Idealize.ShloMosaic.Lib.Pipeline.Frame

noncomputable section

namespace Idealize.ShloMosaic.Pipeline.SharedFrame

open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.Rounds
open TcCoe

set_option Elab.async false

variable {nD : Nat} {τ : Topo} {sig : RefSig} {Val : EltTy → Type} [∀ e, Nonempty (Val e)]
variable {Λ₀ : SL.Sem.Labels} {P : Type} [Fintype P] [DecidableEq P]

local notation "𝕄" => MT nD τ sig Unit Val ℕ (UR sig nD τ) ℕ

/-- THE FRAME RUN for windows that may share arrays: from any memory with zero counters every weakly fair execution of
    @main terminates, and every final state satisfies the library's `FramePost` for the proof data. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hΦ : ∀ c t, (dats p c).Φ t = scopedRest (cfgs p).spec c) :
    θ_run (Pipeline.defs (fun q => Cfg.toPCfg (Val := Val) (cfgs q)) defs₀) (onTc main) (s₀ m g) (FramePost cfgs dats p V) :=
  θ_run_region_noSem_shared cfgs dats () hinj p hw emb₁ defs₀ 𝒱₀ m g main hbody hne harr hstage howed
    (initOf (cells cfgs hinj) (launchToks cfgs hinj)) .rfl V hmain hsplit
    (X := fun _ => iprop(emp)) (Y := fun _ => iprop(emp))
    (Z := fun c => unscopedRest (Ix := Unit) (Name := ℕ) (U := UR sig nD τ) (Lvl := ℕ) (cfgs p).spec c (V c))
    (hX := fun c => by
      iintro HU
      isplitr [HU]
      · iempintro
      · iexact HU)
    (hin := fun c => by
      rw [hΦ]
      iintro ⟨-, HR⟩
      iexact HR)
    (hout := fun c => by
      rw [hΦ]
      iintro HR
      isplitr [HR]
      · iempintro
      · iexact HR)
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Idealize.ShloMosaic.Pipeline.SharedFrame

end
-- ==== Proof.KFrame.lean ====
/-
  The frame of `Kernel` and what its run leaves in the result array, block by block.

  The program is one kernel region on a grid of 25 points. At point t the body is handed, in staging buffers, all of
  the node features x (window 0, fetched once), rows 400 t .. 400 t + 399 of the adjacency (window 1), the same rows of
  x (window 2), all of the weights (window 3), and an output buffer of 400 rows (window 4) written back to rows
  400 t .. 400 t + 399 of the result. Windows 0 and 2 read ONE array, x: the array's full share is split in two halves,
  one per window, which is all a window that only reads needs. The body loads its five buffers whole, computes one
  value of the four inputs, and stores it over the whole output buffer; so after the body the output buffer holds that
  value of the four input blocks, and every input buffer still holds its block.
-/
import proofs.«157403_g26087631356317_cont_9to1_2094_3_alg».proof.Proof.Gen.Kernel.Launch
import proofs.«157403_g26087631356317_cont_9to1_2094_3_alg».proof.Proof.Gen.Kernel.Skeleton
import proofs.«157403_g26087631356317_cont_9to1_2094_3_alg».proof.Proof.Gen.Kernel.Points
import proofs.«157403_g26087631356317_cont_9to1_2094_3_alg».proof.Proof.LibSharedFrame
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The buffers as the region finds them: as launched (@main is the region alone). -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not, for any proof data whose
    array is the region-entry one and whose body leaves the block in place. -/
theorem before_in_of {c : Dev nD} (dat : Dat τ (Elt F) Unit ℕ (UR sig nD τ) ℕ cfg0 c) (w : Fin cfg0.W) (hw : (cfg0.win w).isOut = false)
    (hlive : ∀ i, cfg0.idle w i = false)
    (hclip : ∀ t t' : Fin cfg0.N, (cfg0.win w).index t = (cfg0.win w).index t' →
      (cfg0.win w).clip (cfg0.grid.coords t) = (cfg0.win w).clip (cfg0.grid.coords t'))
    (hkeep : ∀ t, (cfg0.win w).cut (cfg0.grid.coords t) (dat.after w t) = dat.blockOf w t)
    (t : Fin cfg0.N) (d) : dat.before w t d = dat.fetched w t d :=
  dat.before_in_eq_fetched w hw hlive hclip hkeep t d

/-! ## The body's accesses: each buffer whole -/

abbrev rX : Rect S10000x128 := Rect.unit (s := S10000x128) ![0, 0] S10000x128.size inb_S10000x128_S10000x128_0_0
abbrev rA : Rect S400x10000 := Rect.unit (s := S400x10000) ![0, 0] S400x10000.size inb_S400x10000_S400x10000_0_0
abbrev rR : Rect S400x128 := Rect.unit (s := S400x128) ![0, 0] S400x128.size inb_S400x128_S400x128_0_0
abbrev rW : Rect S256x128 := Rect.unit (s := S256x128) ![0, 0] S256x128.size inb_S256x128_S256x128_0_0

/-- The output buffer after the body, from the four input blocks (x whole, the adjacency rows, the x rows, the weights):
    the body's one store, of its one value, over the whole buffer. -/
def outBlock (x0 : Vec F S10000x128 .f32) (x1 : Vec F S400x10000 .f32) (x2 : Vec F S400x128 .f32) (x3 : Vec F S256x128 .f32) : Vec F S400x128 .f32 :=
  View.canon [⟨rR, k0_pay1 (View.ld x1 rA) (View.ld x0 rX) (View.ld x3 rW) (View.ld x2 rR)⟩]

/-- The one store covers the buffer. -/
theorem cover_out (p0 : Vec F S400x128 .f32) (y : S400x128.Idx) :
    ∃ pc ∈ ([⟨rR, p0⟩] : List (View.Piece (Elt F) S400x128 .f32)), y ∈ pc.1.set :=
  View.cover_of_tiled [⟨rR, p0⟩] S400x128.size (by rfl) y

/-! ## The body's triple -/

set_option maxHeartbeats 1000000 in
/-- The body on whole staging memrefs, the inputs' at contents `xW` and the output's at anything, runs to the
    continuation holding the inputs' as they were and the output's at `outBlock` of the inputs'. -/
theorem sound_kernel (c : Dev nD) (E : Set ℕ) (i : grid0.Coords)
    (arg1 : Memref sig .tc .vmem S10000x128 .f32) (harg1 : arg1.IsWhole) (arg2 : Memref sig .tc .vmem S400x10000 .f32) (harg2 : arg2.IsWhole)
    (arg3 : Memref sig .tc .vmem S400x128 .f32) (harg3 : arg3.IsWhole) (arg4 : Memref sig .tc .vmem S256x128 .f32) (harg4 : arg4.IsWhole)
    (arg5 : Memref sig .tc .vmem S400x128 .f32) (harg5 : arg5.IsWhole)
    (x0 : Vec F S10000x128 .f32) (x1 : Vec F S400x10000 .f32) (x2 : Vec F S400x128 .f32) (x3 : Vec F S256x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outBlock x0 x1 x2 x3)) -∗ K ⟨⟩))
      ⊢ wp frame (wpE (defs₀ (F := F)) Variants.none c none) E (cc0__body i arg1 harg1 arg2 harg2 arg3 harg3 arg4 harg4 arg5 harg5) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

/-! ## The pipeline's proof data -/

/-- The proof data on core `c`: the arrays as the region finds them; after the body at point `t` each input's buffer at
    its block and the output's at `outBlock` of the input blocks; the invariant the scoped buffers that are no staging
    buffer (there are none); nothing owed; the array x, read through windows 0 and 2, held half by each; every other
    array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock (iblk m c 0 t) (iblk m c 1 t) (iblk m c 2 t) (iblk m c 3 t)
  Φ _ := Pipeline.scopedRest spec0 c
  q w := match w with
    | ⟨0, _⟩ => fullShare.left
    | ⟨2, _⟩ => fullShare.right
    | _ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = outBlock (iblk m c 0 t) (iblk m c 1 t) (iblk m c 2 t) (iblk m c 3 t) := by dsimp only [dats]

/-- Each input's current staging buffer holds its block at every point, fetched there or not. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

end Cert.Kernel.Frame

end
-- ==== Proof.KRun.lean ====
/-
  The run of `Kernel` and its frame.

  The five windows stand on four buffers: windows 0 and 2 both read x. The launch deals each distinct buffer whole; the
  proof data hold x half by half (one half per reading window), which is the one thing a kernel whose windows share an
  array has to say beyond what every one-region kernel says. From the body obligation and this split, the shared-array
  frame run gives termination without fault and each window's array at the end; the three argument arrays are input
  windows' arrays, so they end as launched.
-/
import proofs.«157403_g26087631356317_cont_9to1_2094_3_alg».proof.Proof.KFrame

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays dealt to the windows -/

/-- The distinct buffers behind the five windows' arrays: x, the adjacency, the weights, the result. -/
theorem arrRefs_eq : Finset.univ.image (Pipeline.arrRef spec0) = [main_arg0, main_arg1, main_arg2, main_v0].toFinset := by decide

theorem bigSep_arrs {M : Type} [URA M] (Φ : Ref sig .tc → sProp M) :
    bigSep (Finset.univ.image (Pipeline.arrRef spec0)) Φ = iprop(Φ main_arg0 ∗ Φ main_arg1 ∗ Φ main_arg2 ∗ Φ main_v0) :=
  bigSep_eq_bigSepL_of_eq [main_arg0, main_arg1, main_arg2, main_v0] arrRefs_eq (by decide) Φ

/-- The windows' arrays at entry, each a whole buffer at its window's share. -/
theorem arrays_entry (c : Dev nD) :
    (dats m 0 c).arrays ((dats m 0 c).arrAt · 0)
      = bigSep Finset.univ fun w : Fin cfg0.W => (((c.tc : Thread nD τ).loc (Pipeline.arrRef spec0 w)) ↦{(dats m 0 c).share w} V m c (Pipeline.arrRef spec0 w) : sProp 𝕄) := by
  unfold Dat.arrays
  exact bigSep_congr fun w _ => by rw [(arr_whole0 w).set_eq_univ]; rfl

theorem share_0 (c : Dev nD) : (dats m 0 c).share 0 = fullShare.left := rfl
theorem share_1 (c : Dev nD) : (dats m 0 c).share 1 = fullShare := rfl
theorem share_2 (c : Dev nD) : (dats m 0 c).share 2 = fullShare.right := rfl
theorem share_3 (c : Dev nD) : (dats m 0 c).share 3 = fullShare := rfl
theorem share_4 (c : Dev nD) : (dats m 0 c).share 4 = fullShare := rfl

/-- The buffers behind the arrays, each whole at the full share, are the windows' arrays at their shares: x's full share
    is its two halves, one for the window that reads all of it and one for the window that reads it 400 rows at a time. -/
theorem hsplit (c : Dev nD) :
    (Pipeline.arrBufs spec0 c (V m c) : sProp 𝕄) ⊢ (dats m 0 c).arrays ((dats m 0 c).arrAt · 0) := by
  rw [arrays_entry]
  unfold Pipeline.arrBufs
  rw [bigSep_arrs, bigSep_W0, share_0, share_1, share_2, share_3, share_4]
  iintro ⟨H0, H1, H2, H3⟩
  ihave H0 := (pointsTo_share (PosShare.mem_left_op_right fullShare)).1 $$ H0
  icases H0 with ⟨H0l, H0r⟩
  isplitl [H0l]; · iexact H0l
  isplitl [H1]; · iexact H1
  isplitl [H0r]; · iexact H0r
  isplitl [H2]; · iexact H2
  iexact H3

/-! ## The run and the frame -/

set_option backward.isDefEq.respectTransparency.types false in
/-- From any memory with zero counters every weakly fair execution of @main terminates, and every final state has each
    window's array at what the library computes from the proof data. -/
theorem run_main : θ_run defs (onTc (τ := τ) (main (F := F))) (s₀ m ρ) (Pipeline.FramePost cfgs (dats m) 0 (V m)) :=
  Pipeline.SharedFrame.θ_run_frame_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := hsplit m) (hΦ := fun _ _ => rfl)

/-- After the run the three argument arrays are as launched: each is an input window's array, never written back. -/
theorem kept_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans (A_eq m c 0))
theorem kept_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans (A_eq m c 1))
theorem kept_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 3).trans (((dats m 0 c).arrAt_in 3 rfl _).trans (A_eq m c 3))
/-- and the result array is what the library computes from the proof data for the output window. -/
theorem post_v0 (r : PUnit × MemSt nD τ sig (Elt F)) (h : Pipeline.FramePost cfgs (dats m) 0 (V m) r) (c : Dev nD) :
    r.2.mem ((c : Thread nD τ).loc main_v0) = (dats m 0 c).arrAt 4 cfg0.N :=
  (h c).1 4

/-- THE FRAME: the program runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨kept_arg0 m r h c, kept_arg1 m r h c, kept_arg2 m r h c⟩) (run_main m ρ)

end Cert.Kernel.Frame

end
-- ==== Proof.KIFrame.lean ====
/-
  The frame of `KernelIdeal` and what its run leaves in the result array, block by block.

  The program is one kernel region on a grid of 25 points. At point t the body is handed, in staging buffers, all of
  the node features x (window 0, fetched once), rows 400 t .. 400 t + 399 of the adjacency (window 1), the same rows of
  x (window 2), all of the weights (window 3), and an output buffer of 400 rows (window 4) written back to rows
  400 t .. 400 t + 399 of the result. Windows 0 and 2 read ONE array, x: the array's full share is split in two halves,
  one per window, which is all a window that only reads needs. The body loads its five buffers whole, computes one
  value of the four inputs, and stores it over the whole output buffer; so after the body the output buffer holds that
  value of the four input blocks, and every input buffer still holds its block.
-/
import proofs.«157403_g26087631356317_cont_9to1_2094_3_alg».proof.Proof.Gen.KernelIdeal.Launch
import proofs.«157403_g26087631356317_cont_9to1_2094_3_alg».proof.Proof.Gen.KernelIdeal.Skeleton
import proofs.«157403_g26087631356317_cont_9to1_2094_3_alg».proof.Proof.Gen.KernelIdeal.Points
import proofs.«157403_g26087631356317_cont_9to1_2094_3_alg».proof.Proof.LibSharedFrame
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The buffers as the region finds them: as launched (@main is the region alone). -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not, for any proof data whose
    array is the region-entry one and whose body leaves the block in place. -/
theorem before_in_of {c : Dev nD} (dat : Dat τ (Elt F) Unit ℕ (UR sig nD τ) ℕ cfg0 c) (w : Fin cfg0.W) (hw : (cfg0.win w).isOut = false)
    (hlive : ∀ i, cfg0.idle w i = false)
    (hclip : ∀ t t' : Fin cfg0.N, (cfg0.win w).index t = (cfg0.win w).index t' →
      (cfg0.win w).clip (cfg0.grid.coords t) = (cfg0.win w).clip (cfg0.grid.coords t'))
    (hkeep : ∀ t, (cfg0.win w).cut (cfg0.grid.coords t) (dat.after w t) = dat.blockOf w t)
    (t : Fin cfg0.N) (d) : dat.before w t d = dat.fetched w t d :=
  dat.before_in_eq_fetched w hw hlive hclip hkeep t d

/-! ## The body's accesses: each buffer whole -/

abbrev rX : Rect S10000x128 := Rect.unit (s := S10000x128) ![0, 0] S10000x128.size inb_S10000x128_S10000x128_0_0
abbrev rA : Rect S400x10000 := Rect.unit (s := S400x10000) ![0, 0] S400x10000.size inb_S400x10000_S400x10000_0_0
abbrev rR : Rect S400x128 := Rect.unit (s := S400x128) ![0, 0] S400x128.size inb_S400x128_S400x128_0_0
abbrev rW : Rect S256x128 := Rect.unit (s := S256x128) ![0, 0] S256x128.size inb_S256x128_S256x128_0_0

/-- The output buffer after the body, from the four input blocks (x whole, the adjacency rows, the x rows, the weights):
    the body's one store, of its one value, over the whole buffer. -/
def outBlock (x0 : Vec F S10000x128 .f32) (x1 : Vec F S400x10000 .f32) (x2 : Vec F S400x128 .f32) (x3 : Vec F S256x128 .f32) : Vec F S400x128 .f32 :=
  View.canon [⟨rR, k0_pay1 (View.ld x1 rA) (View.ld x0 rX) (View.ld x3 rW) (View.ld x2 rR)⟩]

/-- The one store covers the buffer. -/
theorem cover_out (p0 : Vec F S400x128 .f32) (y : S400x128.Idx) :
    ∃ pc ∈ ([⟨rR, p0⟩] : List (View.Piece (Elt F) S400x128 .f32)), y ∈ pc.1.set :=
  View.cover_of_tiled [⟨rR, p0⟩] S400x128.size (by rfl) y

/-! ## The body's triple -/

set_option maxHeartbeats 1000000 in
/-- The body on whole staging memrefs, the inputs' at contents `xW` and the output's at anything, runs to the
    continuation holding the inputs' as they were and the output's at `outBlock` of the inputs'. -/
theorem sound_kernel (c : Dev nD) (E : Set ℕ) (i : grid0.Coords)
    (arg1 : Memref sig .tc .vmem S10000x128 .f32) (harg1 : arg1.IsWhole) (arg2 : Memref sig .tc .vmem S400x10000 .f32) (harg2 : arg2.IsWhole)
    (arg3 : Memref sig .tc .vmem S400x128 .f32) (harg3 : arg3.IsWhole) (arg4 : Memref sig .tc .vmem S256x128 .f32) (harg4 : arg4.IsWhole)
    (arg5 : Memref sig .tc .vmem S400x128 .f32) (harg5 : arg5.IsWhole)
    (x0 : Vec F S10000x128 .f32) (x1 : Vec F S400x10000 .f32) (x2 : Vec F S400x128 .f32) (x3 : Vec F S256x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outBlock x0 x1 x2 x3)) -∗ K ⟨⟩))
      ⊢ wp frame (wpE (defs₀ (F := F)) Variants.none c none) E (cc0__body i arg1 harg1 arg2 harg2 arg3 harg3 arg4 harg4 arg5 harg5) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

/-! ## The pipeline's proof data -/

/-- The proof data on core `c`: the arrays as the region finds them; after the body at point `t` each input's buffer at
    its block and the output's at `outBlock` of the input blocks; the invariant the scoped buffers that are no staging
    buffer (there are none); nothing owed; the array x, read through windows 0 and 2, held half by each; every other
    array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock (iblk m c 0 t) (iblk m c 1 t) (iblk m c 2 t) (iblk m c 3 t)
  Φ _ := Pipeline.scopedRest spec0 c
  q w := match w with
    | ⟨0, _⟩ => fullShare.left
    | ⟨2, _⟩ => fullShare.right
    | _ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = outBlock (iblk m c 0 t) (iblk m c 1 t) (iblk m c 2 t) (iblk m c 3 t) := by dsimp only [dats]

/-- Each input's current staging buffer holds its block at every point, fetched there or not. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

end Cert.KernelIdeal.Frame

end
-- ==== Proof.KIRun.lean ====
/-
  The run of `KernelIdeal` and its frame.

  The five windows stand on four buffers: windows 0 and 2 both read x. The launch deals each distinct buffer whole; the
  proof data hold x half by half (one half per reading window), which is the one thing a kernel whose windows share an
  array has to say beyond what every one-region kernel says. From the body obligation and this split, the shared-array
  frame run gives termination without fault and each window's array at the end; the three argument arrays are input
  windows' arrays, so they end as launched.
-/
import proofs.«157403_g26087631356317_cont_9to1_2094_3_alg».proof.Proof.KIFrame

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays dealt to the windows -/

/-- The distinct buffers behind the five windows' arrays: x, the adjacency, the weights, the result. -/
theorem arrRefs_eq : Finset.univ.image (Pipeline.arrRef spec0) = [main_arg0, main_arg1, main_arg2, main_v0].toFinset := by decide

theorem bigSep_arrs {M : Type} [URA M] (Φ : Ref sig .tc → sProp M) :
    bigSep (Finset.univ.image (Pipeline.arrRef spec0)) Φ = iprop(Φ main_arg0 ∗ Φ main_arg1 ∗ Φ main_arg2 ∗ Φ main_v0) :=
  bigSep_eq_bigSepL_of_eq [main_arg0, main_arg1, main_arg2, main_v0] arrRefs_eq (by decide) Φ

/-- The windows' arrays at entry, each a whole buffer at its window's share. -/
theorem arrays_entry (c : Dev nD) :
    (dats m 0 c).arrays ((dats m 0 c).arrAt · 0)
      = bigSep Finset.univ fun w : Fin cfg0.W => (((c.tc : Thread nD τ).loc (Pipeline.arrRef spec0 w)) ↦{(dats m 0 c).share w} V m c (Pipeline.arrRef spec0 w) : sProp 𝕄) := by
  unfold Dat.arrays
  exact bigSep_congr fun w _ => by rw [(arr_whole0 w).set_eq_univ]; rfl

theorem share_0 (c : Dev nD) : (dats m 0 c).share 0 = fullShare.left := rfl
theorem share_1 (c : Dev nD) : (dats m 0 c).share 1 = fullShare := rfl
theorem share_2 (c : Dev nD) : (dats m 0 c).share 2 = fullShare.right := rfl
theorem share_3 (c : Dev nD) : (dats m 0 c).share 3 = fullShare := rfl
theorem share_4 (c : Dev nD) : (dats m 0 c).share 4 = fullShare := rfl

/-- The buffers behind the arrays, each whole at the full share, are the windows' arrays at their shares: x's full share
    is its two halves, one for the window that reads all of it and one for the window that reads it 400 rows at a time. -/
theorem hsplit (c : Dev nD) :
    (Pipeline.arrBufs spec0 c (V m c) : sProp 𝕄) ⊢ (dats m 0 c).arrays ((dats m 0 c).arrAt · 0) := by
  rw [arrays_entry]
  unfold Pipeline.arrBufs
  rw [bigSep_arrs, bigSep_W0, share_0, share_1, share_2, share_3, share_4]
  iintro ⟨H0, H1, H2, H3⟩
  ihave H0 := (pointsTo_share (PosShare.mem_left_op_right fullShare)).1 $$ H0
  icases H0 with ⟨H0l, H0r⟩
  isplitl [H0l]; · iexact H0l
  isplitl [H1]; · iexact H1
  isplitl [H0r]; · iexact H0r
  isplitl [H2]; · iexact H2
  iexact H3

/-! ## The run and the frame -/

set_option backward.isDefEq.respectTransparency.types false in
/-- From any memory with zero counters every weakly fair execution of @main terminates, and every final state has each
    window's array at what the library computes from the proof data. -/
theorem run_main : θ_run defs (onTc (τ := τ) (main (F := F))) (s₀ m ρ) (Pipeline.FramePost cfgs (dats m) 0 (V m)) :=
  Pipeline.SharedFrame.θ_run_frame_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := hsplit m) (hΦ := fun _ _ => rfl)

/-- After the run the three argument arrays are as launched: each is an input window's array, never written back. -/
theorem kept_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans (A_eq m c 0))
theorem kept_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans (A_eq m c 1))
theorem kept_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 3).trans (((dats m 0 c).arrAt_in 3 rfl _).trans (A_eq m c 3))
/-- and the result array is what the library computes from the proof data for the output window. -/
theorem post_v0 (r : PUnit × MemSt nD τ sig (Elt F)) (h : Pipeline.FramePost cfgs (dats m) 0 (V m) r) (c : Dev nD) :
    r.2.mem ((c : Thread nD τ).loc main_v0) = (dats m 0 c).arrAt 4 cfg0.N :=
  (h c).1 4

/-- THE FRAME: the program runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨kept_arg0 m r h c, kept_arg1 m r h c, kept_arg2 m r h c⟩) (run_main m ρ)

end Cert.KernelIdeal.Frame

end
-- ==== Proof.Spec.lean ====
/-
  GraphSAGE mean aggregation followed by one linear layer, as ONE function of the three argument arrays, entry by entry,
  on the extended reals:

      out (r, j) = Σ_{k < 128} x (r, k) · W (k, j)  +  Σ_{k < 128} mean (r, k) · W (128 + k, j)
      mean (r, k) = (Σ_q adj (r, q) · x (q, k)) / max (ε, Σ_q adj (r, q))

  where x : [10000, 128] holds the node features, adj : [10000, 10000] the dense adjacency weights, W : [256, 128] the
  layer's weights (rows 0..127 act on a node's own features, rows 128..255 on the mean of its neighbours'), and ε is the
  f32 word 0x358637BD (the float nearest 1e-6), the floor under the degree. Both programs compute this function: one
  block of 400 rows at a time with the weight matrix cut in two, the other by joining x and the means side by side and
  multiplying by the whole of W. The two agree because a sum over 256 indices is the sum over the first 128 plus the
  sum over the last 128, which needs only that addition of extended reals is commutative and associative.
-/
import Idealize.ShloMosaic.PureOps.Ideal
import Idealize.ShloMosaic.Lib.ValueIdx

noncomputable section

namespace Cert.Sage

open Idealize.ShloMosaic Idealize.ShloMosaic.ValueIdx

/-- The node features' shape, the adjacency's and the weights'. -/
abbrev SX : Shape := ⟨2, ![10000, 128]⟩
abbrev SA : Shape := ⟨2, ![10000, 10000]⟩
abbrev SW : Shape := ⟨2, ![256, 128]⟩

/-- The floor under a node's degree: the f32 word the source's `1e-6` rounds to, at its exact binary value. -/
def floor : EReal := Ideal.ofBits .f32 0x358637BD#32

/-- Row `k` of the upper half of the weights (a node's own features) and of the lower half (its neighbours' mean). -/
abbrev lo (k : Fin 128) : Fin 256 := ⟨k.val, by omega⟩
abbrev hi (k : Fin 128) : Fin 256 := ⟨128 + k.val, by omega⟩

/-- A node's degree: the sum of its row of the adjacency. -/
def deg (adj : SA.Idx → EReal) (r : Fin 10000) : EReal := ∑ q : Fin 10000, adj (ix2 r q)

/-- The weighted sum of the neighbours' feature `k`. -/
def nbr (x : SX.Idx → EReal) (adj : SA.Idx → EReal) (r : Fin 10000) (k : Fin 128) : EReal :=
  ∑ q : Fin 10000, adj (ix2 r q) * x (ix2 q k)

/-- The neighbours' mean feature: the weighted sum over the degree, the degree floored at ε. -/
def mean (x : SX.Idx → EReal) (adj : SA.Idx → EReal) (r : Fin 10000) (k : Fin 128) : EReal :=
  Ideal.div (nbr x adj r k) (max floor (deg adj r))

/-- The layer's result at row `r`, column `j`. -/
def outAt (x : SX.Idx → EReal) (adj : SA.Idx → EReal) (W : SW.Idx → EReal) (r : Fin 10000) (j : Fin 128) : EReal :=
  (∑ k : Fin 128, x (ix2 r k) * W (ix2 (lo k) j)) + ∑ k : Fin 128, mean x adj r k * W (ix2 (hi k) j)

/-- The layer's result as an array. -/
def out (x : SX.Idx → EReal) (adj : SA.Idx → EReal) (W : SW.Idx → EReal) : SX.Idx → EReal :=
  fun i => outAt x adj W (i 0) (i 1)

end Cert.Sage

end
-- ==== Proof.Payload.lean ====
/-
  The body's arithmetic read at ONE entry. The body holds four loaded blocks — a `400 × 10000` block of the adjacency
  weights, the whole `10000 × 128` array of node features, the whole `256 × 128` weight matrix, and the `400 × 128` block
  of the features of the block's own rows — and stores one `400 × 128` value computed from them. This file proves that the
  stored value at row `p`, column `j` is

      Σ_{k < 128} own (p, k) · W (k, j)  +  Σ_{k < 128} (Σ_q adj (p, q) · x (q, k)) / max (ε, Σ_q adj (p, q)) · W (128 + k, j)

  on the extended reals, with ε the extended real the f32 word 0x358637BD encodes. Each operation of the body that is
  not entrywise is read at an index by one small lemma over variable arrays of the literal shapes: a matrix product
  into the zero splat is the sum over the shared coordinate (the contraction index is re-indexed by its one coordinate);
  the sum over axis 1 is the sum of a row; a vector viewed as a column, and a column repeated across the columns of a
  matrix, read the vector's entry; the two halves of the weight matrix read the matrix at rows `k` and `128 + k`. The
  entrywise operations (sum, quotient, maximum, a scalar repeated everywhere, the narrowing of the format, which is the
  identity on extended reals) read through by definition. Nothing here needs any entry to be finite.
-/
import proofs.«157403_g26087631356317_cont_9to1_2094_3_alg».proof.Proof.Gen.KernelIdeal.Skeleton
import proofs.«157403_g26087631356317_cont_9to1_2094_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.Sage.Pay

open Idealize.ShloMosaic Idealize.ShloMosaic.ValueIdx Idealize.SL.Sem
open Cert.KernelIdeal Cert.KernelIdeal.Gen

/-! ## A vector viewed as a column, and a column repeated across a matrix -/

section Column
variable {α : Type}

/-- An `[a]` array cast to the column `[a, 1]` reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- ONE COLUMN BROADCAST over many: `[a, 1]` broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## The row sum: the reduction over axis 1 -/

/-- The sum of a `400 × 10000` block over its second axis, read at row `p`, is the sum of that row's entries. -/
theorem rowSum_apply (x : FVec Ideal S400x10000 .f32) (h : S400x10000.Reduces [1] S400) (hφ : FKind.Formats .f32)
    (hacc : (0x00000000#32 : BitVec 32) = 0x00000000#32) (p : Fin 400) :
    multiReduction (F := Ideal) .add [1] S400 x 0x00000000#32 h hφ hacc (ix1 p) = ∑ q : Fin 10000, x (ix2 p q) := by
  refine (Ideal.multiReduction_add_single x _ h hφ hacc (ix1 p)).trans ?_
  refine Finset.sum_congr rfl fun q _ => congrArg x (funext fun a => ?_)
  match a with
  | ⟨0, _⟩ => rfl
  | ⟨1, _⟩ => rfl

/-! ## The two matrix products into the zero splat -/

/-! The coordinates of the two operand indices of the `400 × 10000` by `10000 × 128` product at output index `i` and
    contraction index `q`: the left operand is read at `(i 0, q)`, the right at `(q, i 1)`. -/

theorem lhsA_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem lhsA_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem rhsA_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem rhsA_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- The `400 × 10000` by `10000 × 128` product into the zero splat, read at `(p, j)`: the sum over the 10000 shared
    coordinates of the left operand's row `p` times the right operand's column `j`. -/
theorem matmulA_apply (a : FVec Ideal S400x10000 .bf16) (b : FVec Ideal S10000x128 .bf16) (p : Fin 400) (j : Fin 128) :
    matmul dot_S400x10000_S10000x128_S400x128_1_0_0_1_n_n none a b (constant (F := Ideal) S400x128 .f32 0x00000000#32) (ix2 p j)
      = ∑ q : Fin 10000, a (ix2 p q) * b (ix2 q j) := by
  simp only [matmul]
  rw [Ideal.matmul_constant_zero_apply, ← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 p j) ((contrEquiv1 dot_S400x10000_S10000x128_S400x128_1_0_0_1_n_n 10000 rfl rfl).symm k) = ix2 p k := funext fun a => Fin.ext (by
    match a with
    | ⟨0, _⟩ => exact lhsA_0 _ _
    | ⟨1, _⟩ => exact (lhsA_1 _ _).trans hk)
  have er : dot_S400x10000_S10000x128_S400x128_1_0_0_1_n_n.rhsIdx (ix2 p j) ((contrEquiv1 dot_S400x10000_S10000x128_S400x128_1_0_0_1_n_n 10000 rfl rfl).symm k) = ix2 k j := funext fun a => Fin.ext (by
    match a with
    | ⟨0, _⟩ => exact (rhsA_0 _ _).trans hk
    | ⟨1, _⟩ => exact rhsA_1 _ _)
  rw [el, er]

/-! The same four coordinates for the `400 × 128` by `128 × 128` product. -/

theorem lhsB_0 (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
theorem lhsB_1 (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
theorem rhsB_0 (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
theorem rhsB_1 (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-- The `400 × 128` by `128 × 128` product into the zero splat, read at `(p, j)`: the sum over the 128 shared coordinates
    of the left operand's row `p` times the right operand's column `j`. -/
theorem matmulB_apply (a : FVec Ideal S400x128 .f32) (b : FVec Ideal S128x128 .f32) (p : Fin 400) (j : Fin 128) :
    matmul dot_S400x128_S128x128_S400x128_1_0_0_1_n_n none a b (constant (F := Ideal) S400x128 .f32 0x00000000#32) (ix2 p j)
      = ∑ k : Fin 128, a (ix2 p k) * b (ix2 k j) := by
  simp only [matmul]
  rw [Ideal.matmul_constant_zero_apply, ← Equiv.sum_comp (contrEquiv1 dot_S400x128_S128x128_S400x128_1_0_0_1_n_n 128 rfl rfl).symm]
  refine Finset.sum_congr rfl fun k _ => ?_
  have hk := contrEquiv1_symm_val dot_S400x128_S128x128_S400x128_1_0_0_1_n_n 128 rfl rfl k
  have el : dot_S400x128_S128x128_S400x128_1_0_0_1_n_n.lhsIdx (ix2 p j) ((contrEquiv1 dot_S400x128_S128x128_S400x128_1_0_0_1_n_n 128 rfl rfl).symm k) = ix2 p k := funext fun a => Fin.ext (by
    match a with
    | ⟨0, _⟩ => exact lhsB_0 _ _
    | ⟨1, _⟩ => exact (lhsB_1 _ _).trans hk)
  have er : dot_S400x128_S128x128_S400x128_1_0_0_1_n_n.rhsIdx (ix2 p j) ((contrEquiv1 dot_S400x128_S128x128_S400x128_1_0_0_1_n_n 128 rfl rfl).symm k) = ix2 k j := funext fun a => Fin.ext (by
    match a with
    | ⟨0, _⟩ => exact (rhsB_0 _ _).trans hk
    | ⟨1, _⟩ => exact rhsB_1 _ _)
  rw [el, er]

/-! ## The two halves of the weights -/

/-- The upper half of the weights (rows 0 to 127) read at `(k, j)` is the weights at row `lo k`. -/
theorem sliceLo_apply (w : Vec Ideal S256x128 .f32) (h : S256x128.Slices ![0, 0] S128x128) (k j : Fin 128) :
    extractStridedSlice S128x128 ![0, 0] w h (ix2 k j) = w (ix2 (Cert.Sage.lo k) j) :=
  slice2_axis0_apply 0 w h k j (Cert.Sage.lo k) (Nat.zero_add _).symm

/-- The lower half of the weights (rows 128 to 255) read at `(k, j)` is the weights at row `hi k`. -/
theorem sliceHi_apply (w : Vec Ideal S256x128 .f32) (h : S256x128.Slices ![128, 0] S128x128) (k j : Fin 128) :
    extractStridedSlice S128x128 ![128, 0] w h (ix2 k j) = w (ix2 (Cert.Sage.hi k) j) :=
  slice2_axis0_apply 128 w h k j (Cert.Sage.hi k) rfl

/-! ## The payload at an index -/

/-- The body's result at row `p`, column `j` of its block: the node's own features times the upper half of the weights,
    plus the neighbours' mean (the weighted sum over the floored degree) times the lower half. -/
theorem pay_apply (v0 : Vec Ideal S400x10000 .f32) (v2 : Vec Ideal S10000x128 .f32) (v11 : Vec Ideal S256x128 .f32)
    (v12 : Vec Ideal S400x128 .f32) (p : Fin 400) (j : Fin 128) :
    k0_pay1 (F := Ideal) v0 v2 v11 v12 (ix2 p j)
      = (∑ k : Fin 128, v12 (ix2 p k) * v11 (ix2 (Cert.Sage.lo k) j))
        + ∑ k : Fin 128, Ideal.div (∑ q : Fin 10000, v0 (ix2 p q) * v2 (ix2 q k))
            (max Cert.Sage.floor (∑ q : Fin 10000, v0 (ix2 p q))) * v11 (ix2 (Cert.Sage.hi k) j) := by
  unfold k0_pay1
  dsimp only
  rw [addf_apply]
  refine congrArg₂ (· + ·) ?_ ?_
  · rw [matmulB_apply]
    refine Finset.sum_congr rfl fun k _ => ?_
    rw [sliceLo_apply]
  · rw [matmulB_apply]
    refine Finset.sum_congr rfl fun k _ => ?_
    rw [sliceHi_apply, divf_apply, matmulA_apply, broadcastTo_a1_ab_apply, maximumf_apply, broadcast_apply,
      shapeCast_a_a1_apply, rowSum_apply]
    refine congrArg₂ (fun a b => Ideal.div a b * v11 (ix2 (Cert.Sage.hi k) j)) ?_ ?_
    · -- the narrowing to bf16 is the identity on extended reals
      exact Finset.sum_congr rfl fun q _ => by rw [truncf_apply, truncf_apply]
    · -- the floor is the extended real the word 0x358637BD encodes
      unfold Cert.Sage.floor
      rw [Ideal.ofBits_def]

end Cert.Sage.Pay
end
-- ==== Proof.KIValue.lean ====
/-
  What the idealized kernel's run leaves in the result array: the layer's function of Spec.lean, whole.

  Point t of the grid writes rows 400 t .. 400 t + 399 of the result. What it writes at row p of its block, column j, is
  the body's value of its four input blocks there; the adjacency block and the x-rows block are rows 400 t + p of their
  arrays, the other two blocks are all of x and all of W; so the value is the layer's function at (400 t + p, j). The 25
  blocks tile the 10000 rows, so the whole result array is the layer's function of the three argument arrays.
-/
import proofs.«157403_g26087631356317_cont_9to1_2094_3_alg».proof.Proof.KIRun
import proofs.«157403_g26087631356317_cont_9to1_2094_3_alg».proof.Proof.Payload
import proofs.«157403_g26087631356317_cont_9to1_2094_3_alg».proof.Proof.Spec
import Idealize.ShloMosaic.Lib.Pipeline.Value

set_option maxRecDepth 16384

noncomputable section

namespace Cert.Sage.KValue

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The layer's function of the argument arrays as the region finds them. -/
abbrev G (c : Dev nD) : S10000x128.Idx → EReal :=
  Cert.Sage.out (V m c main_arg0) (V m c main_arg1) (V m c main_arg2)

theorem hz : (![0, 0] : Fin 2 → Nat) = fun _ => 0 := funext fun a => by fin_cases a <;> rfl

/-- The body's value at row `p`, column `j` of block `b`, when the adjacency block and the x-rows block are rows
    `400 b + p` of their arrays and the other two blocks are all of x and of W: the layer's function at that row. -/
theorem block_value (x : Cert.Sage.SX.Idx → EReal) (adj : Cert.Sage.SA.Idx → EReal) (W : Cert.Sage.SW.Idx → EReal)
    (b : Nat) (hb : b < 25)
    (v0 : Vec Ideal S400x10000 .f32) (v2 : Vec Ideal S10000x128 .f32) (v11 : Vec Ideal S256x128 .f32) (v12 : Vec Ideal S400x128 .f32)
    (h0 : ∀ (p : Fin 400) (q : Fin 10000), v0 (ix2 p q) = adj (ix2 (⟨b * 400 + p.val, by omega⟩ : Fin 10000) q))
    (h2 : ∀ (q : Fin 10000) (k : Fin 128), v2 (ix2 q k) = x (ix2 q k))
    (h11 : ∀ (k : Fin 256) (j : Fin 128), v11 (ix2 k j) = W (ix2 k j))
    (h12 : ∀ (p : Fin 400) (k : Fin 128), v12 (ix2 p k) = x (ix2 (⟨b * 400 + p.val, by omega⟩ : Fin 10000) k))
    (p : Fin 400) (j : Fin 128) :
    k0_pay1 (F := Ideal) v0 v2 v11 v12 (ix2 p j) = Cert.Sage.outAt x adj W (⟨b * 400 + p.val, by omega⟩ : Fin 10000) j := by
  rw [Cert.Sage.Pay.pay_apply]
  unfold Cert.Sage.outAt Cert.Sage.mean Cert.Sage.nbr Cert.Sage.deg
  simp only [h0, h2, h11, h12]

/-- The printed index maps, decided over the grid: the adjacency rows and the x rows move with the output's rows, the
    windows on all of x and all of W stay put, and the output's row block is the point's number. -/
theorem idx_facts : ∀ t : Fin cfg0.N,
    win0_0.index t (0 : Fin 2) = 0 ∧ win0_0.index t (1 : Fin 2) = 0
    ∧ win0_1.index t (0 : Fin 2) = win0_4.index t (0 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = 0
    ∧ win0_4.index t (0 : Fin 2) ≤ 24 ∧ win0_4.index t (1 : Fin 2) = 0 :=
  (by decide +kernel : ∀ t : Fin grid0.N, _)

/-- Every row block is some point's. -/
theorem idx_onto : ∀ q0 : Fin 25, ∃ t : Fin cfg0.N, win0_4.index t = ![q0.val, 0] :=
  (by decide +kernel : ∀ q0 : Fin 25, ∃ t : Fin grid0.N, win0_4.index t = ![q0.val, 0])

/-- WHAT POINT `t` WRITES BACK is block `t` of the layer's function of the argument arrays. -/
theorem flushed_eq (c : Dev nD) (t : Fin cfg0.N) :
    (dats m 0 c).flushed 4 t = ((cfg0.win 4).blk t).view.read (Elt Ideal) (G m c) := by
  show (cfg0.win 4).cut (grid0.coords t) ((dats m 0 c).after 4 t) = _
  rw [after_4]
  unfold outBlock
  rw [View.canon_unit_zero hz]
  simp only [View.ld_unit_zero (S := S400x10000) hz, View.ld_unit_zero (S := S10000x128) hz, View.ld_unit_zero (S := S256x128) hz, View.ld_unit_zero (S := S400x128) hz]
  obtain ⟨e00, e01, e10, e11, e20, e21, e30, e31, e40, e41⟩ := idx_facts t
  funext y
  obtain ⟨p, j, rfl⟩ : ∃ (p : Fin 400) (j : Fin 128), y = ix2 p j := ⟨y 0, y 1, eq_ix2 y⟩
  refine (block_value (V m c main_arg0) (V m c main_arg1) (V m c main_arg2) (win0_4.index t (0 : Fin 2)) (by omega) _ _ _ _ ?_ ?_ ?_ ?_ p j).trans ?_
  · intro p q
    show V m c main_arg1 (((cfg0.win 1).blk t).view.emb (ix2 p q)) = _
    refine congrArg (V m c main_arg1) (funext fun a => Fin.ext ?_)
    match a with
    | ⟨0, _⟩ => show win0_1.index t (0 : Fin 2) * 400 + 1 * p.val = win0_4.index t (0 : Fin 2) * 400 + p.val; omega
    | ⟨1, _⟩ => show win0_1.index t (1 : Fin 2) * 10000 + 1 * q.val = q.val; omega
  · intro q k
    show V m c main_arg0 (((cfg0.win 0).blk t).view.emb (ix2 q k)) = _
    refine congrArg (V m c main_arg0) (funext fun a => Fin.ext ?_)
    match a with
    | ⟨0, _⟩ => show win0_0.index t (0 : Fin 2) * 10000 + 1 * q.val = q.val; omega
    | ⟨1, _⟩ => show win0_0.index t (1 : Fin 2) * 128 + 1 * k.val = k.val; omega
  · intro k j
    show V m c main_arg2 (((cfg0.win 3).blk t).view.emb (ix2 k j)) = _
    refine congrArg (V m c main_arg2) (funext fun a => Fin.ext ?_)
    match a with
    | ⟨0, _⟩ => show win0_3.index t (0 : Fin 2) * 256 + 1 * k.val = k.val; omega
    | ⟨1, _⟩ => show win0_3.index t (1 : Fin 2) * 128 + 1 * j.val = j.val; omega
  · intro p k
    show V m c main_arg0 (((cfg0.win 2).blk t).view.emb (ix2 p k)) = _
    refine congrArg (V m c main_arg0) (funext fun a => Fin.ext ?_)
    match a with
    | ⟨0, _⟩ => show win0_2.index t (0 : Fin 2) * 400 + 1 * p.val = win0_4.index t (0 : Fin 2) * 400 + p.val; omega
    | ⟨1, _⟩ => show win0_2.index t (1 : Fin 2) * 128 + 1 * k.val = k.val; omega
  · show _ = Cert.Sage.outAt (V m c main_arg0) (V m c main_arg1) (V m c main_arg2) ((((cfg0.win 4).blk t).view.emb (ix2 p j)) 0) ((((cfg0.win 4).blk t).view.emb (ix2 p j)) 1)
    congr 1
    · exact Fin.ext (by show win0_4.index t (0 : Fin 2) * 400 + p.val = win0_4.index t (0 : Fin 2) * 400 + 1 * p.val; omega)
    · exact Fin.ext (by show j.val = win0_4.index t (1 : Fin 2) * 128 + 1 * j.val; omega)

/-- An index of the result array is in point `t`'s block iff each coordinate is in the block's range on its axis. -/
theorem mem_blk (t : Fin cfg0.N) (i : S10000x128.Idx) :
    i ∈ ((cfg0.win 4).blk t).view.set ↔ ∀ a : Fin 2, win0_4.index t a * S400x128.size a ≤ (i a).val ∧ (i a).val < win0_4.index t a * S400x128.size a + S400x128.size a := by
  show i ∈ ((View.whole main_v0).slice (win0_4.rect t)).set ↔ _
  rw [View.set_slice_whole, Rect.mem_set_unit]
  exact Iff.rfl

/-- Every index of the result array is in some point's block: row `r` is in block `r / 400`. -/
theorem cover (i : S10000x128.Idx) : ∃ t : Fin cfg0.N, (cfg0.win 4).flush t = true ∧ i ∈ ((cfg0.win 4).blk t).view.set := by
  have hi0 : (i 0).val < 10000 := (i 0).isLt
  have hi1 : (i 1).val < 128 := (i 1).isLt
  obtain ⟨t, ht⟩ := idx_onto ⟨(i 0).val / 400, by omega⟩
  have q0 : win0_4.index t (0 : Fin 2) = (i 0).val / 400 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 400 ≤ (i 0).val ∧ (i 0).val < win0_4.index t (0 : Fin 2) * 400 + 400; omega
  | ⟨1, _⟩ => show win0_4.index t (1 : Fin 2) * 128 ≤ (i 1).val ∧ (i 1).val < win0_4.index t (1 : Fin 2) * 128 + 128; omega

/-- THE RESULT ARRAY after the run is the layer's function of the argument arrays. -/
theorem final (c : Dev nD) : (dats m 0 c).arrAt 4 cfg0.N = G m c :=
  (dats m 0 c).arrAt_eq_of_cover 4 (G m c) (fun t _ => flushed_eq m c t) cover

/-- The run, read: the result array at the layer's function of the arguments, the arguments unchanged. -/
theorem run : θ_run defs (onTc (τ := τ) (main (F := Ideal))) ⟨m, fun _ => 0, ρ⟩ fun r => ∀ c : Dev nD,
      r.2.mem ((c : Thread nD τ).loc main_v0)
        = Cert.Sage.out (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(post_v0 m r h c).trans (final m c), kept_arg0 m r h c, kept_arg1 m r h c, kept_arg2 m r h c⟩)
    (run_main m ρ)

end Cert.Sage.KValue

end
-- ==== Proof.RefValue.lean ====
/-
  The reference program, entry by entry, is the layer's function of Spec.lean.

  The reference joins the node features x : [10000, 128] and the neighbours' means side by side into a [10000, 256]
  array and multiplies it by the whole weight matrix W : [256, 128]:

      ref (r, j) = Σ_{c < 256} joined (r, c) · W (c, j).

  A sum over 256 indices is the sum over the first 128 plus the sum over the last 128. At a column c = k < 128 the
  joined array holds x (r, k); at a column c = 128 + k it holds the quotient

      (Σ_q adj (r, q) · x (q, k)) / max (ε, 0 + Σ_q adj (r, q)),

  which is mean (r, k) once the reduction's initial value 0 is dropped. No property of the extended reals is used
  beyond 0 + a = a and the splitting of a finite sum.
-/
import proofs.«157403_g26087631356317_cont_9to1_2094_3_alg».proof.Proof.Gen.ReferenceIdeal.Read
import proofs.«157403_g26087631356317_cont_9to1_2094_3_alg».proof.Proof.Spec

noncomputable section

namespace Cert.Sage.Ref

open Cert.ReferenceIdeal Cert.ReferenceIdeal.Gen Cert.ReferenceIdeal.Read Idealize.ShloMosaic Idealize.ShloMosaic.ValueIdx

/-- A sum over 256 indices is the sum over the first 128 plus the sum over the last 128. -/
theorem sum_lo_hi {M : Type*} [AddCommMonoid M] (f : Fin 256 → M) :
    ∑ k : Fin 256, f k = (∑ k : Fin 128, f (lo k)) + ∑ k : Fin 128, f (hi k) := by
  have h := Fin.sum_univ_add (a := 128) (b := 128) f
  have el : ∀ k : Fin 128, (Fin.castAdd 128 k : Fin (128 + 128)) = lo k := fun k => Fin.ext rfl
  have eh : ∀ k : Fin 128, (Fin.natAdd 128 k : Fin (128 + 128)) = hi k := fun k => Fin.ext rfl
  simp only [el, eh] at h
  exact h

/-- The joined array at a column of its first half is the node's own feature. -/
theorem v6_lo (x0 : (⟨S10000x128, .f32⟩ : BufTy).Contents (Elt Ideal)) (x1 : (⟨S10000x10000, .f32⟩ : BufTy).Contents (Elt Ideal))
    (r : Fin 10000) (j k : Fin 128) :
    val_main_v6 (F := Ideal) x0 x1 (lidx_main_v7 (ix2 r j) (lo k)) = x0 (ix2 r k) := by
  unfold val_main_v6
  exact concatenate_pair_apply_left (1 : Fin S10000x256.rank) x0 (val_main_v5 (F := Ideal) x0 x1)
    concatenates_S10000x128_S10000x128_S10000x256_d1 (lidx_main_v7 (ix2 r j) (lo k)) rfl (ix2 r k)
    (fun b => by match b with | ⟨0, _⟩ => rfl | ⟨1, _⟩ => rfl)

/-- The joined array at a column of its second half is the neighbours' mean. -/
theorem v6_hi (x0 : (⟨S10000x128, .f32⟩ : BufTy).Contents (Elt Ideal)) (x1 : (⟨S10000x10000, .f32⟩ : BufTy).Contents (Elt Ideal))
    (r : Fin 10000) (j k : Fin 128) :
    val_main_v6 (F := Ideal) x0 x1 (lidx_main_v7 (ix2 r j) (hi k)) = val_main_v5 (F := Ideal) x0 x1 (ix2 r k) := by
  unfold val_main_v6
  exact concatenate_pair_apply_right (1 : Fin S10000x256.rank) x0 (val_main_v5 (F := Ideal) x0 x1)
    concatenates_S10000x128_S10000x128_S10000x256_d1 (lidx_main_v7 (ix2 r j) (hi k)) rfl rfl (ix2 r k)
    (fun b hb => by match b, hb with | ⟨0, _⟩, _ => rfl | ⟨1, _⟩, hb => exact absurd rfl hb)
    (by show k.val + 128 = 128 + k.val; exact Nat.add_comm _ _)

/-- The reference's quotient at row `r`, column `k` is the neighbours' mean feature: the weighted sum of the
    neighbours' features over the row sum of the adjacency, the row sum floored at ε. -/
theorem v5_eq (x0 : (⟨S10000x128, .f32⟩ : BufTy).Contents (Elt Ideal)) (x1 : (⟨S10000x10000, .f32⟩ : BufTy).Contents (Elt Ideal))
    (r : Fin 10000) (k : Fin 128) :
    val_main_v5 (F := Ideal) x0 x1 (ix2 r k) = mean x0 x1 r k := by
  rw [val_main_v5_apply, val_main_v2_apply, val_main_v4_apply, val_main_v3_apply, val_main_call0_v1_apply,
    val_main_call0_v0_apply, val_main_cst_0_apply, val_main_v1_apply, val_main_v0_apply, val_main_cst_apply,
    Ideal.hostDivf_def, Ideal.maximumf_def, Ideal.ofBits_def, Ideal.ofBits_def, Ideal.ofBits_zero_f32, zero_add]
  unfold mean nbr deg floor
  congr 1
  · refine Finset.sum_congr rfl fun q _ => ?_
    congr 1
    · exact congrArg x1 (funext fun a => Fin.ext (by match a with | ⟨0, _⟩ => rfl | ⟨1, _⟩ => rfl))
    · exact congrArg x0 (funext fun a => Fin.ext (by match a with | ⟨0, _⟩ => rfl | ⟨1, _⟩ => rfl))
  · congr 1
    refine Finset.sum_congr rfl fun q _ => ?_
    exact congrArg x1 (funext fun a => Fin.ext (by match a with | ⟨0, _⟩ => rfl | ⟨1, _⟩ => rfl))

theorem reference_eq (x0 : (⟨S10000x128, .f32⟩ : BufTy).Contents (Elt Ideal)) (x1 : (⟨S10000x10000, .f32⟩ : BufTy).Contents (Elt Ideal)) (x2 : (⟨S256x128, .f32⟩ : BufTy).Contents (Elt Ideal)) :
    val_main_v7 (F := Ideal) x0 x1 x2 = Cert.Sage.out x0 x1 x2 := by
  funext i
  obtain ⟨r, j, rfl⟩ : ∃ r j, i = ix2 r j := ⟨i 0, i 1, eq_ix2 i⟩
  rw [val_main_v7_apply, sum_lo_hi]
  simp only [v6_lo, v6_hi, v5_eq]
  show _ = outAt x0 x1 x2 r j
  unfold outAt
  have e : ∀ k : Fin 256, ridx_main_v7 (ix2 r j) k = ix2 k j := fun k =>
    funext fun a => Fin.ext (by match a with | ⟨0, _⟩ => rfl | ⟨1, _⟩ => rfl)
  simp only [e]

end Cert.Sage.Ref

end
-- ==== Proof.lean ====
/-
  The claim: the GraphSAGE kernel (mean aggregation fused with the linear layer, one block of 400 destination nodes per
  grid point) against its reference, over the extended reals.

  Three frames: each program runs to the end without a fault and leaves its argument arrays unchanged. The kernel, read
  at the word level and read at the ideal values, is one region whose windows 0 and 2 both read the array x; its frame is
  the shared-array frame run with x's share split between the two windows. The reference is a straight line of host
  operations; its frame is its run with the result dropped.

  Nothing was rewritten between the kernel and its idealization, so that conjunct is trivial.

  The value: at the ideal values the kernel's result array is the layer's function of the three arguments (Spec.lean),
  block by block, and so is the reference's, entry by entry; the two programs are run from memories that agree on the
  arguments, so their results are equal. The only law between the two arrangements is that a sum over 256 indices is the
  sum over the first 128 plus the sum over the last 128; nothing needs the inputs to be finite.
-/
import proofs.«157403_g26087631356317_cont_9to1_2094_3_alg».proof.Defs
import proofs.«157403_g26087631356317_cont_9to1_2094_3_alg».proof.Proof.Gen.Kernel
import proofs.«157403_g26087631356317_cont_9to1_2094_3_alg».proof.Proof.Gen.KernelIdeal
import proofs.«157403_g26087631356317_cont_9to1_2094_3_alg».proof.Proof.Gen.ReferenceIdeal
import proofs.«157403_g26087631356317_cont_9to1_2094_3_alg».proof.Proof.Gen.Pre_finite_inputs
import proofs.«157403_g26087631356317_cont_9to1_2094_3_alg».proof.Proof.KRun
import proofs.«157403_g26087631356317_cont_9to1_2094_3_alg».proof.Proof.KIValue
import proofs.«157403_g26087631356317_cont_9to1_2094_3_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Frame.frame m ρ

theorem frame_ki : Cert.frame_KernelIdeal := fun m ρ _ => Cert.KernelIdeal.Frame.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the layer's function of the (agreeing) argument arrays in their result. -/
theorem algebraic : Cert.algebraic_KernelIdeal_ReferenceIdeal := by
  intro m ρ m' ρ' _ hagree
  refine ⟨_, Cert.Sage.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.Sage.Ref.reference_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
